-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x1024x4096 : Shape := ⟨3, ![2, 1024, 4096]⟩
abbrev S16384x4096 : Shape := ⟨2, ![16384, 4096]⟩
abbrev S524288 : Shape := ⟨1, ![524288]⟩
abbrev S_ : Shape := ⟨0, ![]⟩

class Facts : Prop where
  bcast_S_S2x1024x4096 : S_.BroadcastsInDim S2x1024x4096 (![] : Fin 0 → Fin S2x1024x4096.rank)
  reducesTo_S2x1024x4096_S_d0_1_2 : S2x1024x4096.ReducesTo [0, 1, 2] S_
  h_S_ : 0 < S_.numel
  bcast_S_S524288 : S_.BroadcastsInDim S524288 (![] : Fin 0 → Fin S524288.rank)
  reducesTo_S524288_S_d0 : S524288.ReducesTo [0] S_

variable [Facts]

def fn {F : FTy → Type} [FloatOps F] (main_arg0 : FVec F S2x1024x4096 .f32) (main_arg1 : IVec S16384x4096 32) (main_arg2 : FVec F S524288 .f32) : IVec S_ 1 :=
  let main_v0 : FVec F S2x1024x4096 .f32 := Host.absf main_arg0
  let main_cst : FVec F S_ .f32 := constant S_ .f32 0x7F800000#32
  let main_v1 : FVec F S2x1024x4096 .f32 := broadcastInDim S2x1024x4096 ![] bcast_S_S2x1024x4096 main_cst
  let main_v2 : IVec S2x1024x4096 1 := cmpf .olt main_v0 main_v1
  let main_c : IVec S_ 1 := constantI S_ 1 1#1
  let main_v3 : IVec S_ 1 := (fun x v => Host.reduce IntOp.andi x v reducesTo_S2x1024x4096_S_d0_1_2 h_S_) main_v2 main_c
  let main_v4 : FVec F S524288 .f32 := Host.absf main_arg2
  let main_cst_0 : FVec F S_ .f32 := constant S_ .f32 0x7F800000#32
  let main_v5 : FVec F S524288 .f32 := broadcastInDim S524288 ![] bcast_S_S524288 main_cst_0
  let main_v6 : IVec S524288 1 := cmpf .olt main_v4 main_v5
  let main_c_1 : IVec S_ 1 := constantI S_ 1 1#1
  let main_v7 : IVec S_ 1 := (fun x v => Host.reduce IntOp.andi x v reducesTo_S524288_S_d0 h_S_) main_v6 main_c_1
  let main_v8 : IVec S_ 1 := andi main_v3 main_v7
  main_v8
-- ==== Kernel.lean ====
abbrev S2x1024x4096 : Shape := ⟨3, ![2, 1024, 4096]⟩
abbrev S16384x4096 : Shape := ⟨2, ![16384, 4096]⟩
abbrev S524288 : Shape := ⟨1, ![524288]⟩
abbrev S2048x4096 : Shape := ⟨2, ![2048, 4096]⟩
abbrev S16384x32 : Shape := ⟨2, ![16384, 32]⟩
abbrev S2048x16384 : Shape := ⟨2, ![2048, 16384]⟩
abbrev S128x4096 : Shape := ⟨2, ![128, 4096]⟩
abbrev S128x32 : Shape := ⟨2, ![128, 32]⟩
abbrev S2048x128 : Shape := ⟨2, ![2048, 128]⟩
abbrev S128x32x128 : Shape := ⟨3, ![128, 32, 128]⟩
abbrev S128x32x1 : Shape := ⟨3, ![128, 32, 1]⟩
abbrev S2x1024x16384 : Shape := ⟨3, ![2, 1024, 16384]⟩

abbrev nBuf : Space → Nat
  | .hbm => 8
  | .vmem => 7
  | .smem => 0
  | _ => 0

abbrev bufTy : (tb : Table) → Fin (tcTables nBuf tb) → BufTy
  | .hbm, ⟨0, _⟩ => ⟨S2x1024x4096, .f32⟩
  | .hbm, ⟨1, _⟩ => ⟨S16384x4096, .i32⟩
  | .hbm, ⟨2, _⟩ => ⟨S524288, .f32⟩
  | .hbm, ⟨3, _⟩ => ⟨S2048x4096, .f32⟩
  | .hbm, ⟨4, _⟩ => ⟨S2048x4096, .bf16⟩
  | .hbm, ⟨5, _⟩ => ⟨S16384x32, .f32⟩
  | .hbm, ⟨6, _⟩ => ⟨S2048x16384, .f32⟩
  | .hbm, ⟨7, _⟩ => ⟨S2x1024x16384, .f32⟩
  | .local _ .vmem, ⟨0, _⟩ => ⟨S2048x4096, .bf16⟩
  | .local _ .vmem, ⟨1, _⟩ => ⟨S128x4096, .i32⟩
  | .local _ .vmem, ⟨2, _⟩ => ⟨S128x4096, .i32⟩
  | .local _ .vmem, ⟨3, _⟩ => ⟨S128x32, .f32⟩
  | .local _ .vmem, ⟨4, _⟩ => ⟨S128x32, .f32⟩
  | .local _ .vmem, ⟨5, _⟩ => ⟨S2048x128, .f32⟩
  | .local _ .vmem, ⟨6, _⟩ => ⟨S2048x128, .f32⟩
  | _, _ => ⟨S2x1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S2x1024x4096_S2048x4096 : S2x1024x4096.ShapeCasts S2048x4096
  bitsLt_bf16_f32 : FTy.bits .bf16 < FTy.bits .f32
  shapeCasts_S524288_S16384x32 : S524288.ShapeCasts S16384x32
  inb_S128x4096_S128x4096_0_0 : ∀ a, (![0, 0] : Fin 2 → Nat) a + S128x4096.size a ≤ S128x4096.size a
  h_S128x4096 : 0 < S128x4096.numel
  shapeCasts_S128x4096_S128x32x128 : S128x4096.ShapeCasts S128x32x128
  inb_S128x32_S128x32_0_0 : ∀ a, (![0, 0] : Fin 2 → Nat) a + S128x32.size a ≤ S128x32.size a
  h_S128x32 : 0 < S128x32.numel
  shapeCasts_S128x32_S128x32 : S128x32.ShapeCasts S128x32
  shapeCasts_S128x32_S128x32x1 : S128x32.ShapeCasts S128x32x1
  broadcasts_S128x32x1_S128x32x128 : S128x32x1.Broadcasts S128x32x128
  shapeCasts_S128x32x128_S128x4096 : S128x32x128.ShapeCasts S128x4096
  inb_S2048x4096_S2048x4096_0_0 : ∀ a, (![0, 0] : Fin 2 → Nat) a + S2048x4096.size a ≤ S2048x4096.size a
  h_S2048x4096 : 0 < S2048x4096.numel
  shapeCasts_S2048x4096_S2048x4096 : S2048x4096.ShapeCasts S2048x4096
  inb_S2048x128_S2048x128_0_0 : ∀ a, (![0, 0] : Fin 2 → Nat) a + S2048x128.size a ≤ S2048x128.size a
  h_S2048x128 : 0 < S2048x128.numel
  shapeCasts_S2048x16384_S2x1024x16384 : S2048x16384.ShapeCasts S2x1024x16384
  dot_S2048x4096_S128x4096_S2048x128_1_1_0_0_n_n_wf : DotDims.WF S2048x4096 S128x4096 S2048x128 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2048x4096.size a ≤ S2048x4096.size a
  hwx0_0 : ∀ i : grid0.Coords, EltTy.bits .bf16 = 32 ∨ (Rect.block (s := S2048x4096) S2048x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x4096.size a ≤ S16384x4096.size a
  hwx0_1 : ∀ i : grid0.Coords, EltTy.bits .i32 = 32 ∨ (Rect.block (s := S16384x4096) S128x4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x32.size a ≤ S16384x32.size a
  hwx0_2 : ∀ i : grid0.Coords, EltTy.bits .f32 = 32 ∨ (Rect.block (s := S16384x32) S128x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x128.size a ≤ S2048x16384.size a
  hwx0_3 : ∀ i : grid0.Coords, EltTy.bits .f32 = 32 ∨ (Rect.block (s := S2048x16384) S2048x128.size (cc0_transform_3 i) (hinb0_3 i)).WholeWords (EltTy.packing .f32)

variable [Facts₀]

def dot_S2048x4096_S128x4096_S2048x128_1_1_0_0_n_n : DotDims S2048x4096 S128x4096 S2048x128 where
  lhsContracting := [1]
  rhsContracting := [1]
  lhsNonContracting := [0]
  rhsNonContracting := [0]
  lhsBatch := []
  rhsBatch := []
  wf := dot_S2048x4096_S128x4096_S2048x128_1_1_0_0_n_n_wf

abbrev win0_0 : Pipeline.Window sig grid0 :=
  Pipeline.Window.ofSpec (Memref.whole main_v1) S2048x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S128x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S2048x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2x1024x4096 : Shape := ⟨3, ![2, 1024, 4096]⟩
abbrev S16384x4096 : Shape := ⟨2, ![16384, 4096]⟩
abbrev S524288 : Shape := ⟨1, ![524288]⟩
abbrev S524288x128 : Shape := ⟨2, ![524288, 128]⟩
abbrev S524288x1 : Shape := ⟨2, ![524288, 1]⟩
abbrev S2x1024x16384 : Shape := ⟨3, ![2, 1024, 16384]⟩

abbrev nBuf : Space → Nat
  | .hbm => 10
  | .vmem => 0
  | .smem => 0
  | _ => 0

abbrev bufTy : (tb : Table) → Fin (tcTables nBuf tb) → BufTy
  | .hbm, ⟨0, _⟩ => ⟨S2x1024x4096, .f32⟩
  | .hbm, ⟨1, _⟩ => ⟨S16384x4096, .i32⟩
  | .hbm, ⟨2, _⟩ => ⟨S524288, .f32⟩
  | .hbm, ⟨3, _⟩ => ⟨S16384x4096, .f32⟩
  | .hbm, ⟨4, _⟩ => ⟨S524288x128, .f32⟩
  | .hbm, ⟨5, _⟩ => ⟨S524288x1, .f32⟩
  | .hbm, ⟨6, _⟩ => ⟨S524288x128, .f32⟩
  | .hbm, ⟨7, _⟩ => ⟨S524288x128, .f32⟩
  | .hbm, ⟨8, _⟩ => ⟨S16384x4096, .f32⟩
  | .hbm, ⟨9, _⟩ => ⟨S2x1024x16384, .f32⟩
  | _, _ => ⟨S2x1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]

class Facts₀ : Prop where
  shapeCasts_S16384x4096_S524288x128 : S16384x4096.ShapeCasts S524288x128
  bcast_S524288_S524288x1_0 : S524288.BroadcastsInDim S524288x1 (![0] : Fin 1 → Fin S524288x1.rank)
  bcast_S524288x1_S524288x128_0_1 : S524288x1.BroadcastsInDim S524288x128 (![0, 1] : Fin 2 → Fin S524288x128.rank)
  shapeCasts_S524288x128_S16384x4096 : S524288x128.ShapeCasts S16384x4096
  dot_S2x1024x4096_S16384x4096_S2x1024x16384_2_1_01_0_n_n_wf : DotDims.WF S2x1024x4096 S16384x4096 S2x1024x16384 [2] [1] [0, 1] [0] [] []

variable [Facts₀]

def dot_S2x1024x4096_S16384x4096_S2x1024x16384_2_1_01_0_n_n : DotDims S2x1024x4096 S16384x4096 S2x1024x16384 where
  lhsContracting := [2]
  rhsContracting := [1]
  lhsNonContracting := [0, 1]
  rhsNonContracting := [0]
  lhsBatch := []
  rhsBatch := []
  wf := dot_S2x1024x4096_S16384x4096_S2x1024x16384_2_1_01_0_n_n_wf

class Facts : Prop extends Facts₀ where

variable [Facts]
-- ==== Proof.Tile.lean ====
/-
  One grid step's arithmetic, read at one entry of its output tile.

  A step holds a tile of 128 rows of the ternary code matrix (128 × 4096 integers) and the matching 128 × 32 tile of
  group scales: each row of 4096 codes is cut into 32 groups of 128 consecutive codes, and every code of group `g` of
  row `q` is multiplied by the scale at `(q, g)`. The step then contracts the whole activation matrix (2048 × 4096)
  with the scaled tile along the 4096 columns. So entry `(p, q)` of the step's 2048 × 128 result is
      Σ_k  x[p, k] · (code[q, k] · scale[q, k / 128]).
  The regrouping 4096 = 32 × 128 is a row-major reshape, so column `k` sits in group `k / 128` at lane `k % 128`.
-/
import proofs.«121488_j15058155339896_2_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.Tile

open Idealize.ShloMosaic Idealize.ShloMosaic.ValueIdx Cert.KernelIdeal Cert.KernelIdeal.Gen

/-- The group a column of a 4096-wide row belongs to: 128 consecutive columns share one scale. -/
abbrev grp (k : Fin 4096) : Fin 32 := ⟨k.val / 128, by have := k.isLt; omega⟩
/-- A column's place inside its group. -/
abbrev lane (k : Fin 4096) : Fin 128 := ⟨k.val % 128, Nat.mod_lt _ (by decide)⟩

variable {α : Type}

/-- Regrouping a 128 × 4096 tile as 128 × 32 × 128 and reading group `g`, lane `l` of row `q` reads column
    `128 g + l` of that row. -/
theorem regroup_apply (X : S128x4096.Idx → α) (h : S128x4096.ShapeCasts S128x32x128) (q : Fin 128) (k : Fin 4096) :
    shapeCast S128x32x128 X h (ix3 q (grp k) (lane k)) = X (ix2 q k) :=
  shapeCast_apply X h (ix3 q (grp k) (lane k)) (ix2 q k) (by
    rw [Shape.rowMajor_val_three, Shape.rowMajor_val_two]
    show q.val * 4096 + k.val = (q.val * 32 + k.val / 128) * 128 + k.val % 128
    omega)

/-- Flattening the groups back: column `k` of row `q` is lane `k % 128` of group `k / 128`. -/
theorem flatten_apply (Y : S128x32x128.Idx → α) (h : S128x32x128.ShapeCasts S128x4096) (q : Fin 128) (k : Fin 4096) :
    shapeCast S128x4096 Y h (ix2 q k) = Y (ix3 q (grp k) (lane k)) :=
  shapeCast_apply Y h (ix2 q k) (ix3 q (grp k) (lane k)) (by
    rw [Shape.rowMajor_val_three, Shape.rowMajor_val_two]
    show (q.val * 32 + k.val / 128) * 128 + k.val % 128 = q.val * 4096 + k.val
    omega)

/-- The scale tile, given a trailing unit axis and spread along the 128 lanes of each group, reads the scale of the
    row and the group at every lane. -/
theorem spread_apply (s : S128x32.Idx → α) (h1 : S128x32.ShapeCasts S128x32) (h2 : S128x32.ShapeCasts S128x32x1)
    (h3 : S128x32x1.Broadcasts S128x32x128) (q : Fin 128) (g : Fin 32) (l : Fin 128) :
    broadcastTo S128x32x128 (shapeCast S128x32x1 (shapeCast S128x32 s h1) h2) h3 (ix3 q g l) = s (ix2 q g) := by
  refine (broadcastTo_apply _ h3 (ix3 q g l) (ix3 q g (0 : Fin 1)) (fun a => ?_)).trans ?_
  · match a with
    | ⟨0, _⟩ => rfl
    | ⟨1, _⟩ => rfl
    | ⟨2, _⟩ => rfl
  · refine (shapeCast_apply _ h2 (ix3 q g (0 : Fin 1)) (ix2 q g) (by
      rw [Shape.rowMajor_val_three, Shape.rowMajor_val_two]
      show q.val * 32 + g.val = (q.val * 32 + g.val) * 1 + 0
      omega)).trans ?_
    rw [shapeCast_self]

/-- The scaled weight tile as the step forms it from the code tile and the scale tile. -/
def scaled (T : Vec Ideal S128x4096 .i32) (s : Vec Ideal S128x32 .f32) : FVec Ideal S128x4096 .bf16 :=
  truncf .bf16 (shapeCast S128x4096 (mulf (shapeCast S128x32x128 (sitofp .f32 T : FVec Ideal S128x4096 .f32) shapeCasts_S128x4096_S128x32x128)
    (broadcastTo S128x32x128 (shapeCast S128x32x1 (shapeCast S128x32 s shapeCasts_S128x32_S128x32) shapeCasts_S128x32_S128x32x1) broadcasts_S128x32x1_S128x32x128))
    shapeCasts_S128x32x128_S128x4096) bitsLt_bf16_f32

/-- Entry `(q, k)` of the scaled tile: the code times its group's scale. -/
theorem scaled_apply (T : Vec Ideal S128x4096 .i32) (s : Vec Ideal S128x32 .f32) (q : Fin 128) (k : Fin 4096) :
    scaled T s (ix2 q k) = FloatOps.sitofp (F := Ideal) .f32 (T (ix2 q k)) * s (ix2 q (grp k)) := by
  unfold scaled
  rw [truncf_apply, flatten_apply, mulf_apply, regroup_apply, spread_apply, sitofp_apply]

/-- The contraction pairs row `p` of the activations … -/
theorem lhs_row (i : S2048x128.Idx) (r : dot_S2048x4096_S128x4096_S2048x128_1_1_0_0_n_n.contr.Idx) :
    (dot_S2048x4096_S128x4096_S2048x128_1_1_0_0_n_n.lhsIdx i r 0).val = (i 0).val := by
  unfold DotDims.lhsIdx
  rw [dif_neg (show ¬(0 : Fin S2048x4096.rank) ∈ dot_S2048x4096_S128x4096_S2048x128_1_1_0_0_n_n.lhsBatch by decide),
    dif_pos (show (0 : Fin S2048x4096.rank) ∈ dot_S2048x4096_S128x4096_S2048x128_1_1_0_0_n_n.lhsNonContracting by decide)]
  rfl
/-- … at the contracted column … -/
theorem lhs_col (i : S2048x128.Idx) (r : dot_S2048x4096_S128x4096_S2048x128_1_1_0_0_n_n.contr.Idx) :
    (dot_S2048x4096_S128x4096_S2048x128_1_1_0_0_n_n.lhsIdx i r 1).val = (r ⟨0, by decide⟩).val :=
  dot_S2048x4096_S128x4096_S2048x128_1_1_0_0_n_n.lhsIdx_val_of_single rfl i r
/-- … with row `q` of the tile (the tile is contracted along its own columns, so no transpose is formed) … -/
theorem rhs_row (i : S2048x128.Idx) (r : dot_S2048x4096_S128x4096_S2048x128_1_1_0_0_n_n.contr.Idx) :
    (dot_S2048x4096_S128x4096_S2048x128_1_1_0_0_n_n.rhsIdx i r 0).val = (i 1).val := by
  unfold DotDims.rhsIdx
  rw [dif_neg (show ¬(0 : Fin S128x4096.rank) ∈ dot_S2048x4096_S128x4096_S2048x128_1_1_0_0_n_n.rhsBatch by decide),
    dif_pos (show (0 : Fin S128x4096.rank) ∈ dot_S2048x4096_S128x4096_S2048x128_1_1_0_0_n_n.rhsNonContracting by decide)]
  rfl
/-- … at the same column. -/
theorem rhs_col (i : S2048x128.Idx) (r : dot_S2048x4096_S128x4096_S2048x128_1_1_0_0_n_n.contr.Idx) :
    (dot_S2048x4096_S128x4096_S2048x128_1_1_0_0_n_n.rhsIdx i r 1).val = (r ⟨0, by decide⟩).val :=
  dot_S2048x4096_S128x4096_S2048x128_1_1_0_0_n_n.rhsIdx_val_of_single rfl i r

/-- Entry `(p, q)` of a step's result: the activation row `p` against the scaled code row `q`, summed over the 4096
    columns. The accumulator the product is added onto is the zero splat. -/
theorem pay_apply (T : Vec Ideal S128x4096 .i32) (s : Vec Ideal S128x32 .f32) (x : Vec Ideal S2048x4096 .bf16)
    (p : Fin 2048) (q : Fin 128) :
    k0_pay1 (F := Ideal) T s x (ix2 p q)
      = ∑ k : Fin 4096, x (ix2 p k) * (FloatOps.sitofp (F := Ideal) .f32 (T (ix2 q k)) * s (ix2 q (grp k))) := by
  unfold k0_pay1
  show FloatOps.matmul dot_S2048x4096_S128x4096_S2048x128_1_1_0_0_n_n none (shapeCast S2048x4096 x shapeCasts_S2048x4096_S2048x4096) (scaled T s)
    (constant S2048x128 .f32 0x00000000#32) (ix2 p q) = _
  rw [Ideal.matmul_constant_zero_apply, shapeCast_self,
    ← Equiv.sum_comp (contrEquiv1 dot_S2048x4096_S128x4096_S2048x128_1_1_0_0_n_n 4096 rfl rfl).symm]
  refine Finset.sum_congr rfl fun k _ => ?_
  have hk := contrEquiv1_symm_val dot_S2048x4096_S128x4096_S2048x128_1_1_0_0_n_n 4096 rfl rfl k
  have el : dot_S2048x4096_S128x4096_S2048x128_1_1_0_0_n_n.lhsIdx (ix2 p q)
      ((contrEquiv1 dot_S2048x4096_S128x4096_S2048x128_1_1_0_0_n_n 4096 rfl rfl).symm k) = ix2 p k :=
    funext fun a => Fin.ext (by
      match a with
      | ⟨0, _⟩ => exact lhs_row _ _
      | ⟨1, _⟩ => exact (lhs_col _ _).trans hk)
  have er : dot_S2048x4096_S128x4096_S2048x128_1_1_0_0_n_n.rhsIdx (ix2 p q)
      ((contrEquiv1 dot_S2048x4096_S128x4096_S2048x128_1_1_0_0_n_n 4096 rfl rfl).symm k) = ix2 q k :=
    funext fun a => Fin.ext (by
      match a with
      | ⟨0, _⟩ => exact rhs_row _ _
      | ⟨1, _⟩ => exact (rhs_col _ _).trans hk)
  rw [el, er, scaled_apply]

/-- The whole product, 2048 × 16384: row `p` of the activations against the scaled code row `o`, the scale of
    code `(o, k)` being entry `(o, k / 128)` of the 16384 × 32 scale matrix. Each grid step computes 128 columns of it. -/
def product (X : Vec Ideal S2048x4096 .bf16) (T : Vec Ideal S16384x4096 .i32) (S : Vec Ideal S16384x32 .f32) :
    Vec Ideal S2048x16384 .f32 := fun i =>
  ∑ k : Fin 4096, X (ix2 ⟨(i 0).val, (i 0).isLt⟩ k)
    * (FloatOps.sitofp (F := Ideal) .f32 (T (ix2 ⟨(i 1).val, (i 1).isLt⟩ k)) * S (ix2 ⟨(i 1).val, (i 1).isLt⟩ (grp k)))

/-- A step's result tile is the tile of the whole product at the step's 128 columns, when the step's three blocks are
    the activations whole, and rows `128 n … 128 n + 127` of the codes and of the scales. -/
theorem pay_eq_product (X : Vec Ideal S2048x4096 .bf16) (T : Vec Ideal S16384x4096 .i32) (S : Vec Ideal S16384x32 .f32)
    (n : Nat) (hn : n < 128)
    (x0 : Vec Ideal S2048x4096 .bf16) (x1 : Vec Ideal S128x4096 .i32) (x2 : Vec Ideal S128x32 .f32)
    (h0 : ∀ (p : Fin 2048) (k : Fin 4096), x0 (ix2 p k) = X (ix2 p k))
    (h1 : ∀ (q : Fin 128) (k : Fin 4096), x1 (ix2 q k) = T (ix2 ⟨n * 128 + q.val, by have := q.isLt; omega⟩ k))
    (h2 : ∀ (q : Fin 128) (g : Fin 32), x2 (ix2 q g) = S (ix2 ⟨n * 128 + q.val, by have := q.isLt; omega⟩ g))
    (p : Fin 2048) (q : Fin 128) (i : S2048x16384.Idx) (hi0 : (i 0).val = p.val) (hi1 : (i 1).val = n * 128 + q.val) :
    k0_pay1 (F := Ideal) x1 x2 x0 (ix2 p q) = product X T S i := by
  rw [pay_apply]
  unfold product
  refine Finset.sum_congr rfl fun k _ => ?_
  rw [h0, h1, h2]
  have e0 : (⟨(i 0).val, (i 0).isLt⟩ : Fin 2048) = p := Fin.ext hi0
  have e1 : (⟨(i 1).val, (i 1).isLt⟩ : Fin 16384) = ⟨n * 128 + q.val, by have := q.isLt; omega⟩ := Fin.ext hi1
  rw [e0, e1]

end Cert.KernelIdeal.Tile

end
-- ==== Proof.Blocks.lean ====
/-
  From the grid steps to the whole product array.

  The grid has 128 steps. Step `t` is handed the whole 2048 × 4096 activation matrix, rows `128 t … 128 t + 127` of the
  16384 × 4096 code matrix and of the 16384 × 32 scale matrix, and writes columns `128 t … 128 t + 127` of the
  2048 × 16384 result. By `Tile.lean` what it writes is those columns of the whole product, and the 128 column blocks
  tile the result, so after the last step the result array is the whole product of the arrays the grid was started on.
-/
import proofs.«121488_j15058155339896_2_alg».proof.Proof.Gen.KernelIdeal.Frame
import proofs.«121488_j15058155339896_2_alg».proof.Proof.Tile
import Idealize.ShloMosaic.Lib.Pipeline.Value
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Cert.KernelIdeal.Tile

variable (m : (ℓ : Loc nD τ sig) → Buf (Elt Ideal) ℓ) (ρ : Dev nD → PrngReg)

theorem zero_offsets : (![0, 0] : Fin 2 → Nat) = fun _ => 0 := funext fun a => by fin_cases a <;> rfl

/-- Which block of its array each operand's window shows at step `t`: the activations always block `(0, 0)` (the whole
    matrix), the codes and the scales row block `t`, the result column block `t`. -/
theorem block_of_step : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = t.val :=
  (by decide +kernel : ∀ t : Fin grid0.N, _)

theorem step_lt (t : Fin cfg0.N) : t.val < 128 := lt_of_lt_of_eq t.isLt (show cfg0.N = 128 from N_0)

/-- Step `t`'s activation block is the activation matrix. -/
theorem acts_block (c : Dev nD) (t : Fin cfg0.N) (p : Fin 2048) (k : Fin 4096) :
    (iblk m c 0 t : Vec Ideal S2048x4096 .bf16) (ix2 p k) = (V m c main_v1 : Vec Ideal S2048x4096 .bf16) (ix2 p k) := by
  obtain ⟨e0, e1, -⟩ := block_of_step t
  unfold iblk
  rw [View.read_apply]
  show V m c main_v1 _ = V m c main_v1 _
  refine congrArg (V m c main_v1) (funext fun a => Fin.ext ?_)
  match a with
  | ⟨0, _⟩ => show win0_0.index t (0 : Fin 2) * 2048 + 1 * p.val = p.val; omega
  | ⟨1, _⟩ => show win0_0.index t (1 : Fin 2) * 4096 + 1 * k.val = k.val; omega

/-- Step `t`'s code block is rows `128 t …` of the code matrix. -/
theorem codes_block (c : Dev nD) (t : Fin cfg0.N) (q : Fin 128) (k : Fin 4096) :
    (iblk m c 1 t : Vec Ideal S128x4096 .i32) (ix2 q k)
      = (V m c main_arg1 : Vec Ideal S16384x4096 .i32) (ix2 ⟨t.val * 128 + q.val, by have := step_lt t; have := q.isLt; omega⟩ k) := by
  obtain ⟨-, -, e0, e1, -⟩ := block_of_step t
  unfold iblk
  rw [View.read_apply]
  show V m c main_arg1 _ = V m c main_arg1 _
  refine congrArg (V m c main_arg1) (funext fun a => Fin.ext ?_)
  match a with
  | ⟨0, _⟩ => show win0_1.index t (0 : Fin 2) * 128 + 1 * q.val = t.val * 128 + q.val; omega
  | ⟨1, _⟩ => show win0_1.index t (1 : Fin 2) * 4096 + 1 * k.val = k.val; omega

/-- Step `t`'s scale block is rows `128 t …` of the scale matrix. -/
theorem scales_block (c : Dev nD) (t : Fin cfg0.N) (q : Fin 128) (g : Fin 32) :
    (iblk m c 2 t : Vec Ideal S128x32 .f32) (ix2 q g)
      = (V m c main_v2 : Vec Ideal S16384x32 .f32) (ix2 ⟨t.val * 128 + q.val, by have := step_lt t; have := q.isLt; omega⟩ g) := by
  obtain ⟨-, -, -, -, e0, e1, -⟩ := block_of_step t
  unfold iblk
  rw [View.read_apply]
  show V m c main_v2 _ = V m c main_v2 _
  refine congrArg (V m c main_v2) (funext fun a => Fin.ext ?_)
  match a with
  | ⟨0, _⟩ => show win0_2.index t (0 : Fin 2) * 128 + 1 * q.val = t.val * 128 + q.val; omega
  | ⟨1, _⟩ => show win0_2.index t (1 : Fin 2) * 32 + 1 * g.val = g.val; omega

/-- The whole product of the arrays the grid is started on. -/
abbrev whole (c : Dev nD) : Vec Ideal S2048x16384 .f32 :=
  product (V m c main_v1) (V m c main_arg1) (V m c main_v2)

/-- Entry `j` of what step `t` computes is the whole product at column `128 t + j₁` of row `j₀`. -/
theorem tile_eq (c : Dev nD) (t : Fin cfg0.N) (j : S2048x128.Idx) :
    k0_pay1 (F := Ideal) (iblk m c 1 t) (iblk m c 2 t) (iblk m c 0 t) j = whole m c (((cfg0.win 3).blk t).view.emb j) := by
  obtain ⟨-, -, -, -, -, -, e0, e1⟩ := block_of_step t
  obtain ⟨p, q, rfl⟩ : ∃ (p : Fin 2048) (q : Fin 128), j = ix2 p q := ⟨j 0, j 1, eq_ix2 j⟩
  refine pay_eq_product (V m c main_v1) (V m c main_arg1) (V m c main_v2) t.val (step_lt t) (iblk m c 0 t) (iblk m c 1 t) (iblk m c 2 t)
    (acts_block m c t) (codes_block m c t) (scales_block m c t) p q _ ?_ ?_
  · show win0_3.index t (0 : Fin 2) * 2048 + 1 * p.val = p.val; omega
  · show win0_3.index t (1 : Fin 2) * 128 + 1 * q.val = t.val * 128 + q.val; omega

/-- What step `t` writes back is its block of the whole product. -/
theorem flushed_eq (c : Dev nD) (t : Fin cfg0.N) :
    (dats m 0 c).flushed 3 t = ((cfg0.win 3).blk t).view.read (Elt Ideal) (whole m c) := by
  show (cfg0.win 3).cut (grid0.coords t) ((dats m 0 c).after 3 t) = _
  rw [after0_3]
  unfold out0_3
  rw [View.canon_unit_zero zero_offsets]
  simp only [View.ld_unit_zero (S := S128x4096) zero_offsets, View.ld_unit_zero (S := S128x32) zero_offsets,
    View.ld_unit_zero (S := S2048x4096) zero_offsets]
  funext j
  exact tile_eq m c t j

/-- An entry of the result array lies in step `t`'s block iff its column lies in `128 t … 128 t + 127`. -/
theorem mem_block (t : Fin cfg0.N) (i : S2048x16384.Idx) :
    i ∈ ((cfg0.win 3).blk t).view.set ↔ ∀ a : Fin 2, win0_3.index t a * S2048x128.size a ≤ (i a).val ∧ (i a).val < win0_3.index t a * S2048x128.size a + S2048x128.size a := by
  show i ∈ ((View.whole main_v3).slice (win0_3.rect t)).set ↔ _
  rw [View.set_slice_whole, Rect.mem_set_unit]
  exact Iff.rfl

/-- After the last step the result array is the whole product: column `o` was written by step `o / 128`. -/
theorem final (c : Dev nD) : (dats m 0 c).arrAt 3 cfg0.N = whole m c :=
  (dats m 0 c).arrAt_eq_of_cover 3 (whole m c) (fun t _ => flushed_eq m c t) fun i => by
    have hi0 : (i 0).val < 2048 := (i 0).isLt
    have hi1 : (i 1).val < 16384 := (i 1).isLt
    obtain ⟨t, ht⟩ : ∃ t : Fin cfg0.N, t.val = (i 1).val / 128 :=
      ⟨⟨(i 1).val / 128, by rw [show cfg0.N = 128 from N_0]; omega⟩, rfl⟩
    obtain ⟨-, -, -, -, -, -, e0, e1⟩ := block_of_step t
    refine ⟨t, flush0_3 t, ?_⟩
    rw [mem_block]
    intro a
    match a with
    | ⟨0, _⟩ => show win0_3.index t (0 : Fin 2) * 2048 ≤ (i 0).val ∧ (i 0).val < win0_3.index t (0 : Fin 2) * 2048 + 2048; omega
    | ⟨1, _⟩ => show win0_3.index t (1 : Fin 2) * 128 ≤ (i 1).val ∧ (i 1).val < win0_3.index t (1 : Fin 2) * 128 + 128; omega

/-- The activation matrix the grid is started on: the activations viewed as 2048 × 4096. -/
theorem acts_entry (c : Dev nD) :
    (V m c main_v1 : Vec Ideal S2048x4096 .bf16)
      = truncf .bf16 (shapeCast S2048x4096 (m ((c : Thread nD τ).loc main_arg0)) shapeCasts_S2x1024x4096_S2048x4096 : FVec Ideal S2048x4096 .f32) bitsLt_bf16_f32 := by
  show StableHlo.after hostOps0 (fun b => m (c, b)) (Proc.devRef .tc main_v1) = _
  after_results
  rfl

/-- The scale matrix the grid is started on: the scales viewed as 16384 × 32. -/
theorem scales_entry (c : Dev nD) :
    (V m c main_v2 : Vec Ideal S16384x32 .f32)
      = shapeCast S16384x32 (m ((c : Thread nD τ).loc main_arg2)) shapeCasts_S524288_S16384x32 := by
  show StableHlo.after hostOps0 (fun b => m (c, b)) (Proc.devRef .tc main_v2) = _
  after_results
  rfl

/-- The program's result: the result array of the grid viewed as 2 × 1024 × 16384. -/
theorem tail_eq (c : Dev nD) :
    Pipeline.afterTail₀ cfgs (dats m) 0 (V0 m) [hostOps1] c main_v4
      = shapeCast S2x1024x16384 ((dats m 0 c).arrAt 3 cfg0.N) shapeCasts_S2048x16384_S2x1024x16384 := by
  unfold Pipeline.afterTail₀
  show StableHlo.after hostOps1 _ (Proc.devRef .tc main_v4) = _
  after_results
  have e := Pipeline.withArrays_arr spec0 launch0.win.arr_inj c (V0 m c) (fun w => (dats m 0 c).arrAt w cfg0.N) 3
  funext i
  show shapeCast S2x1024x16384 (Pipeline.withArrays spec0 c (V0 m c) (fun w => (dats m 0 c).arrAt w cfg0.N)
    (Proc.devRef .tc (Pipeline.arrRef spec0 3))) shapeCasts_S2048x16384_S2x1024x16384 i = _
  rw [e]

end Cert.KernelIdeal.Blocks

end
-- ==== Proof.Spec.lean ====
/-
  The function both programs compute.

  The inputs are activations `x` (2 × 1024 × 4096), ternary codes `c` (16384 × 4096 integers) and one scale per group of
  128 consecutive entries of the flattened code matrix (16384 · 4096 / 128 = 524288 scales). Entry `(o, k)` of the code
  matrix is entry `4096 o + k` of the flattening, so its group is `(4096 o + k) / 128 = 32 o + k / 128`. The
  dequantized weight is `w[o, k] = c[o, k] · scale[32 o + k / 128]`, and the result is the linear layer
      out[b, s, o] = Σ_k x[b, s, k] · w[o, k].
-/
import Idealize.ShloMosaic.Lib.ValueIdx
import Idealize.ShloMosaic.PureOps.Ideal

noncomputable section

open scoped BigOperators

namespace Cert.Spec

open Idealize.ShloMosaic Idealize.ShloMosaic.ValueIdx

/-- The linear layer over the dequantized ternary weights, entry by entry, on the extended reals. -/
def linear (x : Vec Ideal ⟨3, ![2, 1024, 4096]⟩ .f32) (c : Vec Ideal ⟨2, ![16384, 4096]⟩ .i32) (scale : Vec Ideal ⟨1, ![524288]⟩ .f32) :
    Vec Ideal ⟨3, ![2, 1024, 16384]⟩ .f32 := fun i =>
  ∑ k : Fin 4096, x (ix3 ⟨(i 0).val, (i 0).isLt⟩ ⟨(i 1).val, (i 1).isLt⟩ k)
    * (FloatOps.sitofp (F := Ideal) .f32 (c (ix2 ⟨(i 2).val, (i 2).isLt⟩ k))
        * scale (ix1 ⟨(i 2).val * 32 + k.val / 128, by have h2 : (i 2).val < 16384 := (i 2).isLt; have := k.isLt; omega⟩))

end Cert.Spec

end
-- ==== Proof.KerSide.lean ====
/-
  The kernel's program computes the linear layer of `Spec.lean`.

  Around the grid the program only re-lays its arrays: the activations 2 × 1024 × 4096 are viewed as 2048 × 4096 (row
  `1024 b + s`), the 524288 scales as 16384 × 32 (scale `32 o + g` at `(o, g)`), and the 2048 × 16384 product is viewed
  as 2 × 1024 × 16384 at the end. Under these views the tiled product of `Tile.lean` is the linear layer: the scale of
  code `(o, k)` is entry `(o, k / 128)` of the scale matrix, that is scale `32 o + k / 128`.
-/
import proofs.«121488_j15058155339896_2_alg».proof.Proof.Tile
import proofs.«121488_j15058155339896_2_alg».proof.Proof.Spec

noncomputable section

open scoped BigOperators

namespace Cert.KernelIdeal.Relaid

open Idealize.ShloMosaic Idealize.ShloMosaic.ValueIdx Cert.KernelIdeal Cert.KernelIdeal.Tile

/-- Row `1024 b + s` of the activations viewed as a matrix is row `(b, s)` of the activations (the change of number
    format in between keeps every extended real). -/
theorem acts_apply (x : Vec Ideal S2x1024x4096 .f32) (h : S2x1024x4096.ShapeCasts S2048x4096) (hb : FTy.bits .bf16 < FTy.bits .f32)
    (b : Fin 2) (s : Fin 1024) (k : Fin 4096) (r : Fin 2048) (hr : r.val = b.val * 1024 + s.val) :
    (truncf .bf16 (shapeCast S2048x4096 x h : FVec Ideal S2048x4096 .f32) hb : FVec Ideal S2048x4096 .bf16) (ix2 r k) = x (ix3 b s k) := by
  rw [truncf_apply]
  exact shapeCast_apply x h (ix2 r k) (ix3 b s k) (by
    rw [Shape.rowMajor_val_three, Shape.rowMajor_val_two]
    show (b.val * 1024 + s.val) * 4096 + k.val = r.val * 4096 + k.val
    rw [hr])

/-- Entry `(o, g)` of the scales viewed as a 16384 × 32 matrix is scale `32 o + g`. -/
theorem scales_apply (scale : Vec Ideal S524288 .f32) (h : S524288.ShapeCasts S16384x32) (o : Fin 16384) (g : Fin 32)
    (n : Fin 524288) (hn : n.val = o.val * 32 + g.val) :
    shapeCast S16384x32 scale h (ix2 o g) = scale (ix1 n) :=
  shapeCast_apply scale h (ix2 o g) (ix1 n) (by
    rw [Shape.rowMajor_val_one, Shape.rowMajor_val_two]
    show n.val = o.val * 32 + g.val
    exact hn)

/-- The tiled product of the re-laid inputs, viewed as 2 × 1024 × 16384, is the linear layer. -/
theorem whole_eq (x : Vec Ideal S2x1024x4096 .f32) (c : Vec Ideal S16384x4096 .i32) (scale : Vec Ideal S524288 .f32)
    (h0 : S2x1024x4096.ShapeCasts S2048x4096) (hb : FTy.bits .bf16 < FTy.bits .f32) (h2 : S524288.ShapeCasts S16384x32)
    (h4 : S2048x16384.ShapeCasts S2x1024x16384) :
    shapeCast S2x1024x16384 (product (truncf .bf16 (shapeCast S2048x4096 x h0 : FVec Ideal S2048x4096 .f32) hb) c (shapeCast S16384x32 scale h2)) h4
      = Cert.Spec.linear x c scale := by
  funext i
  have hi0 : (i 0).val < 2 := (i 0).isLt
  have hi1 : (i 1).val < 1024 := (i 1).isLt
  have hi2 : (i 2).val < 16384 := (i 2).isLt
  refine (shapeCast_apply _ h4 i (ix2 (⟨(i 0).val * 1024 + (i 1).val, by omega⟩ : Fin 2048) (⟨(i 2).val, hi2⟩ : Fin 16384)) (by
    rw [Shape.rowMajor_val_three, Shape.rowMajor_val_two]
    show ((i 0).val * 1024 + (i 1).val) * 16384 + (i 2).val = ((i 0).val * 1024 + (i 1).val) * 16384 + (i 2).val
    rfl)).trans ?_
  unfold product Cert.Spec.linear
  refine Finset.sum_congr rfl fun k _ => ?_
  refine congrArg₂ (· * ·) ?_ (congrArg₂ (· * ·) rfl ?_)
  · exact acts_apply x h0 hb ⟨(i 0).val, hi0⟩ ⟨(i 1).val, hi1⟩ k _ rfl
  · exact scales_apply scale h2 ⟨(i 2).val, hi2⟩ (grp k) _ rfl

end Cert.KernelIdeal.Relaid

end
-- ==== Proof.KernelRun.lean ====
/-
  The kernel's program, run: every execution ends with the result array at the linear layer of `Spec.lean` of the
  three argument arrays, and the argument arrays as they were.

  The run itself (termination, no fault, what each array of the grid holds afterwards) is the generated frame run. Read
  off it here: the program's result is the grid's result array viewed as 2 × 1024 × 16384; that array is the whole tiled
  product of the arrays the grid was started on (`Blocks.lean`); those are the arguments re-laid, and under the re-laying
  the product is the linear layer (`KerSide.lean`).
-/
import proofs.«121488_j15058155339896_2_alg».proof.Proof.Blocks
import proofs.«121488_j15058155339896_2_alg».proof.Proof.KerSide

noncomputable section

open Idealize.ShloMosaic Idealize.ShloMosaic.TcCoe Idealize.SL.Sem

namespace Cert.KernelIdeal.Whole

open Cert.KernelIdeal Cert.KernelIdeal.Gen Cert.KernelIdeal.Tile Cert.KernelIdeal.Blocks

variable (m : (ℓ : Loc nD τ sig) → Buf (Elt Ideal) ℓ) (ρ : Dev nD → PrngReg)

/-- What the program's result buffer holds after the lines that follow the grid: the linear layer of the arguments. -/
theorem result_eq (c : Dev nD) :
    Pipeline.afterTail₀ cfgs (dats m) 0 (V0 m) [hostOps1] c main_v4
      = Cert.Spec.linear (m ((c : Thread nD τ).loc main_arg0)) (m ((c : Thread nD τ).loc main_arg1)) (m ((c : Thread nD τ).loc main_arg2)) := by
  rw [tail_eq, final]
  show shapeCast S2x1024x16384 (product (V m c main_v1) (V m c main_arg1) (V m c main_v2)) shapeCasts_S2048x16384_S2x1024x16384 = _
  rw [acts_entry, scales_entry, V_main_arg1]
  exact Cert.KernelIdeal.Relaid.whole_eq _ _ _ _ _ _ _

/-- The run, read. -/
theorem run : θ_run defs (onTc (τ := τ) (main (F := Ideal))) ⟨m, fun _ => 0, ρ⟩ fun r => ∀ c : Dev nD,
      r.2.mem ((c.tc : Thread nD τ).loc main_v4)
        = Cert.Spec.linear (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v4 (Pipeline.mem_restRefs_of main_v4 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.Whole

end
-- ==== Proof.RefSide.lean ====
/-
  The reference computes the linear layer of `Spec.lean`.

  It forms the weights by viewing the code matrix as 524288 rows of 128 entries, multiplying row `g` by scale `g`, and
  viewing the product as 16384 × 4096 again; entry `(o, k)` of that is entry `(4096 o + k) % 128` of row
  `(4096 o + k) / 128 = 32 o + k / 128`, which is code `(o, k)` times scale `32 o + k / 128`. It then contracts the
  activations with the weights along the 4096 columns.
-/
import proofs.«121488_j15058155339896_2_alg».proof.Proof.Gen.ReferenceIdeal.Read
import proofs.«121488_j15058155339896_2_alg».proof.Proof.Spec

noncomputable section

open scoped BigOperators

namespace Cert.ReferenceIdeal.RefValue

open Idealize.ShloMosaic Idealize.ShloMosaic.ValueIdx Cert.ReferenceIdeal Cert.ReferenceIdeal.Read

/-- Weight `(o, k)`, traced back through the two reshapes, reads code `(o, k)` … -/
theorem code_idx (i : S2x1024x16384.Idx) (k : Fin 4096) :
    idx_main_v1 (idx_main_v5 (ridx_main_v6 i k)) = ix2 ⟨(i 2).val, (i 2).isLt⟩ k :=
  funext fun a => Fin.ext (by
    have h2 : (i 2).val < 16384 := (i 2).isLt
    have hk := k.isLt
    match a with
    | ⟨0, _⟩ =>
      show (((i 2).val * 4096 + k.val) / 128 * 128 + ((i 2).val * 4096 + k.val) % 128) / 4096 = (i 2).val
      omega
    | ⟨1, _⟩ =>
      show (((i 2).val * 4096 + k.val) / 128 * 128 + ((i 2).val * 4096 + k.val) % 128) % 4096 = k.val
      omega)

/-- … and the scale of group `32 o + k / 128`. -/
theorem scale_idx (i : S2x1024x16384.Idx) (k : Fin 4096) :
    idx_main_v2 (idx_main_v3 (idx_main_v5 (ridx_main_v6 i k)))
      = ix1 ⟨(i 2).val * 32 + k.val / 128, by have h2 : (i 2).val < 16384 := (i 2).isLt; have := k.isLt; omega⟩ :=
  funext fun a => Fin.ext (by
    have h2 : (i 2).val < 16384 := (i 2).isLt
    have hk := k.isLt
    match a with
    | ⟨0, _⟩ =>
      show ((i 2).val * 4096 + k.val) / 128 = (i 2).val * 32 + k.val / 128
      omega)

/-- The activation read by term `k` of entry `(b, s, o)` is `x[b, s, k]`. -/
theorem act_idx (i : S2x1024x16384.Idx) (k : Fin 4096) :
    lidx_main_v6 i k = ix3 ⟨(i 0).val, (i 0).isLt⟩ ⟨(i 1).val, (i 1).isLt⟩ k :=
  funext fun a => by
    match a with
    | ⟨0, _⟩ => rfl
    | ⟨1, _⟩ => rfl
    | ⟨2, _⟩ => rfl

/-- The reference's result is the linear layer. -/
theorem result_eq (x : Vec Ideal S2x1024x4096 .f32) (c : Vec Ideal S16384x4096 .i32) (scale : Vec Ideal S524288 .f32) :
    val_main_v6 (F := Ideal) x c scale = Cert.Spec.linear x c scale := by
  funext i
  rw [val_main_v6_apply]
  unfold Cert.Spec.linear
  refine Finset.sum_congr rfl fun k _ => ?_
  rw [val_main_v5_apply, val_main_v4_apply, val_main_v1_apply, val_main_v0_apply, val_main_v3_apply, val_main_v2_apply,
    code_idx, scale_idx, act_idx]
  rfl

end Cert.ReferenceIdeal.RefValue

end
-- ==== Proof.lean ====
/-
  A linear layer over ternary weights with one scale per group of 128 weights: the tiled kernel against the plain
  formula, on the extended reals.

  Both programs compute, from activations `x` (2 × 1024 × 4096), integer codes `c` (16384 × 4096) and 524288 scales,
      out[b, s, o] = Σ_k x[b, s, k] · (c[o, k] · scale[32 o + k / 128])
  (`Proof/Spec.lean`): the weight `(o, k)` is the code times the scale of the group of 128 consecutive entries of the
  flattened code matrix it lies in, and `(4096 o + k) / 128 = 32 o + k / 128`.
  * The reference multiplies the code matrix, viewed as 524288 rows of 128, row by row by the scales, views the product
    as 16384 × 4096 again and contracts with the activations (`Proof/RefSide.lean`).
  * The kernel views the activations as 2048 × 4096 and the scales as 16384 × 32, and in each of 128 grid steps scales a
    tile of 128 code rows group by group and contracts the whole activation matrix with it, producing 128 columns of the
    2048 × 16384 result (`Proof/Tile.lean`); the column blocks tile the result (`Proof/Blocks.lean`), which is viewed as
    2 × 1024 × 16384 at the end (`Proof/KerSide.lean`, `Proof/KernelRun.lean`).
  The two sides are the same sum of the same products term by term, so no property of the inputs is used: the equality
  holds on all extended reals. Changes of number format are the identity there, and the idealization rewrote nothing,
  so the kernel's idealized program is its own text.
  The three frames: each kernel program's is its generated frame; the reference's is its generated run, result dropped.
-/
import proofs.«121488_j15058155339896_2_alg».proof.Defs
import proofs.«121488_j15058155339896_2_alg».proof.Proof.Gen.Kernel
import proofs.«121488_j15058155339896_2_alg».proof.Proof.Gen.Kernel.Skeleton
import proofs.«121488_j15058155339896_2_alg».proof.Proof.Gen.Kernel.Launch
import proofs.«121488_j15058155339896_2_alg».proof.Proof.Gen.Kernel.Points
import proofs.«121488_j15058155339896_2_alg».proof.Proof.Gen.Kernel.Frame
import proofs.«121488_j15058155339896_2_alg».proof.Proof.Gen.KernelIdeal
import proofs.«121488_j15058155339896_2_alg».proof.Proof.Gen.KernelIdeal.Skeleton
import proofs.«121488_j15058155339896_2_alg».proof.Proof.Gen.KernelIdeal.Launch
import proofs.«121488_j15058155339896_2_alg».proof.Proof.Gen.KernelIdeal.Points
import proofs.«121488_j15058155339896_2_alg».proof.Proof.Gen.KernelIdeal.Frame
import proofs.«121488_j15058155339896_2_alg».proof.Proof.Gen.ReferenceIdeal
import proofs.«121488_j15058155339896_2_alg».proof.Proof.Gen.ReferenceIdeal.Run
import proofs.«121488_j15058155339896_2_alg».proof.Proof.Gen.ReferenceIdeal.Read
import proofs.«121488_j15058155339896_2_alg».proof.Proof.Gen.Pre_finite_inputs
import proofs.«121488_j15058155339896_2_alg».proof.Proof.KernelRun
import proofs.«121488_j15058155339896_2_alg».proof.Proof.RefSide
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation, so there is nothing to restate. -/
theorem preserves : Cert.preserves_Kernel_KernelIdeal := trivial

/-- Both programs end with the linear layer of the (agreeing) arguments in their result arrays. -/
theorem algebraic : Cert.algebraic_KernelIdeal_ReferenceIdeal := by
  intro m ρ m' ρ' _ hagree
  refine ⟨fun c => Cert.Spec.linear (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.ReferenceIdeal.RefValue.result_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
